-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S32768 : Shape := ⟨1, ![32768]⟩
abbrev S1000000x64 : Shape := ⟨2, ![1000000, 64]⟩
abbrev S50000x64 : Shape := ⟨2, ![50000, 64]⟩
abbrev S64x128 : Shape := ⟨2, ![64, 128]⟩
abbrev S128 : Shape := ⟨1, ![128]⟩
abbrev S128x128 : Shape := ⟨2, ![128, 128]⟩
abbrev S256x3 : Shape := ⟨2, ![256, 3]⟩
abbrev S3 : Shape := ⟨1, ![3]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg18 : FVec F S256x3 .f32) (main_arg19 : FVec F S3 .f32) (main_v63 : IVec S_ 1) (main_v67 : IVec S_ 1) : IVec S_ 1 :=
  let main_v68 : IVec S_ 1 := andi main_v63 main_v67
  let main_v69 : FVec F S256x3 .f32 := Host.absf main_arg18
  let main_cst_26 : FVec F S_ .f32 := constant S_ .f32 0x7F800000#32
  let main_v70 : FVec F S256x3 .f32 := broadcastInDim S256x3 ![] bcast_S_S256x3 main_cst_26
  let main_v71 : IVec S256x3 1 := cmpf .olt main_v69 main_v70
  let main_c_27 : IVec S_ 1 := constantI S_ 1 1#1
  let main_v72 : IVec S_ 1 := (fun x v => Host.reduce IntOp.andi x v reducesTo_S256x3_S_d0_1 h_S_) main_v71 main_c_27
  let main_v73 : IVec S_ 1 := andi main_v68 main_v72
  let main_v74 : FVec F S3 .f32 := Host.absf main_arg19
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  main_v78

def fn_part3 {F : FTy → Type} [FloatOps F] (main_arg15 : FVec F S128x128 .f32) (main_arg16 : FVec F S128 .f32) (main_arg17 : FVec F S128x128 .f32) (main_arg18 : FVec F S256x3 .f32) (main_arg19 : FVec F S3 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg17
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg18 main_arg19 main_v63 main_v67

def fn_part2 {F : FTy → Type} [FloatOps F] (main_arg11 : FVec F S64x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S256x3 .f32) (main_arg19 : FVec F S3 .f32) (main_v33 : IVec S_ 1) : IVec S_ 1 :=
  let main_v34 : FVec F S64x128 .f32 := Host.absf main_arg11
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg15 main_arg16 main_arg17 main_arg18 main_arg19 main_v48 main_v49 main_v50

def fn_part1 {F : FTy → Type} [FloatOps F] (main_arg8 : FVec F S64x128 .f32) (main_arg9 : FVec F S64x128 .f32) (main_arg10 : FVec F S128 .f32) (main_arg11 : FVec F S64x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S256x3 .f32) (main_arg19 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg8
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg9
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_v33

def fn {F : FTy → Type} [FloatOps F] (main_arg0 : IVec S1000000 32) (main_arg1 : IVec S32768 32) (main_arg2 : IVec S1000000 32) (main_arg3 : IVec S1000000 32) (main_arg4 : FVec F S1000000x64 .f32) (main_arg5 : FVec F S50000x64 .f32) (main_arg6 : FVec F S64x128 .f32) (main_arg7 : FVec F S128 .f32) (main_arg8 : FVec F S64x128 .f32) (main_arg9 : FVec F S64x128 .f32) (main_arg10 : FVec F S128 .f32) (main_arg11 : FVec F S64x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S256x3 .f32) (main_arg19 : FVec F S3 .f32) : IVec S_ 1 :=
  let main_v0 : FVec F S1000000x64 .f32 := Host.absf main_arg4
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S50000x64 .f32 := Host.absf main_arg5
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x128 .f32 := Host.absf main_arg6
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_arg19 main_v13 main_v16
-- ==== Kernel.lean ====
abbrev S1000000 : Shape := ⟨1, ![1000000]⟩
abbrev S32768 : Shape := ⟨1, ![32768]⟩
abbrev S1000000x64 : Shape := ⟨2, ![1000000, 64]⟩
abbrev S50000x64 : Shape := ⟨2, ![50000, 64]⟩
abbrev S64x128 : Shape := ⟨2, ![64, 128]⟩
abbrev S128 : Shape := ⟨1, ![128]⟩
abbrev S128x128 : Shape := ⟨2, ![128, 128]⟩
abbrev S256x3 : Shape := ⟨2, ![256, 3]⟩
abbrev S3 : Shape := ⟨1, ![3]⟩
abbrev S_ : Shape := ⟨0, ![]⟩
abbrev S1000000x1 : Shape := ⟨2, ![1000000, 1]⟩
abbrev S32768x1 : Shape := ⟨2, ![32768, 1]⟩
abbrev S32768x64 : Shape := ⟨2, ![32768, 64]⟩
abbrev S1x128 : Shape := ⟨2, ![1, 128]⟩
abbrev S32768x128 : Shape := ⟨2, ![32768, 128]⟩
abbrev S8192x64 : Shape := ⟨2, ![8192, 64]⟩
abbrev S8192x128 : Shape := ⟨2, ![8192, 128]⟩
abbrev S1000000x128 : Shape := ⟨2, ![1000000, 128]⟩
abbrev S10000x64 : Shape := ⟨2, ![10000, 64]⟩
abbrev S10000x128 : Shape := ⟨2, ![10000, 128]⟩
abbrev S16384x256 : Shape := ⟨2, ![16384, 256]⟩
abbrev S16384x3 : Shape := ⟨2, ![16384, 3]⟩
abbrev S1x3 : Shape := ⟨2, ![1, 3]⟩
abbrev S16384 : Shape := ⟨1, ![16384]⟩
abbrev S16384x1 : Shape := ⟨2, ![16384, 1]⟩

abbrev nBuf : Space → Nat
  | .hbm => 117
  | .vmem => 36
  | .smem => 0
  | _ => 0

abbrev bufTy : (tb : Table) → Fin (tcTables nBuf tb) → BufTy
  | .hbm, ⟨0, _⟩ => ⟨S1000000, .i32⟩
  | .hbm, ⟨1, _⟩ => ⟨S32768, .i32⟩
  | .hbm, ⟨2, _⟩ => ⟨S1000000, .i32⟩
  | .hbm, ⟨3, _⟩ => ⟨S1000000, .i32⟩
  | .hbm, ⟨4, _⟩ => ⟨S1000000x64, .f32⟩
  | .hbm, ⟨5, _⟩ => ⟨S50000x64, .f32⟩
  | .hbm, ⟨6, _⟩ => ⟨S64x128, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S128, .f32⟩
  | .hbm, ⟨11, _⟩ => ⟨S64x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S256x3, .f32⟩
  | .hbm, ⟨19, _⟩ => ⟨S3, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S32768x64, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .f32⟩
  | .hbm, ⟨47, _⟩ => ⟨S_, .f32⟩
  | .hbm, ⟨48, _⟩ => ⟨S32768x64, .f32⟩
  | .hbm, ⟨49, _⟩ => ⟨S1000000x1, .i32⟩
  | .hbm, ⟨50, _⟩ => ⟨S32768x64, .f32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x64, .f32⟩
  | .hbm, ⟨60, _⟩ => ⟨S_, .f32⟩
  | .hbm, ⟨61, _⟩ => ⟨S1000000x64, .f32⟩
  | .hbm, ⟨62, _⟩ => ⟨S1000000x1, .i32⟩
  | .hbm, ⟨63, _⟩ => ⟨S1000000x64, .f32⟩
  | .hbm, ⟨64, _⟩ => ⟨S1x128, .f32⟩
  | .hbm, ⟨65, _⟩ => ⟨S32768x128, .f32⟩
  | .hbm, ⟨66, _⟩ => ⟨S1x128, .f32⟩
  | .hbm, ⟨67, _⟩ => ⟨S1000000x128, .f32⟩
  | .hbm, ⟨68, _⟩ => ⟨S_, .i32⟩
  | .hbm, ⟨69, _⟩ => ⟨S1000000, .i32⟩
  | .hbm, ⟨70, _⟩ => ⟨S1000000, .i1⟩
  | .hbm, ⟨71, _⟩ => ⟨S_, .i32⟩
  | .hbm, ⟨72, _⟩ => ⟨S1000000, .i32⟩
  | .hbm, ⟨73, _⟩ => ⟨S1000000, .i32⟩
  | .hbm, ⟨74, _⟩ => ⟨S1000000, .i32⟩
  | .hbm, ⟨75, _⟩ => ⟨S1000000x1, .i32⟩
  | .hbm, ⟨76, _⟩ => ⟨S1000000x128, .f32⟩
  | .hbm, ⟨77, _⟩ => ⟨S_, .f32⟩
  | .hbm, ⟨78, _⟩ => ⟨S32768x128, .f32⟩
  | .hbm, ⟨79, _⟩ => ⟨S1000000x1, .i32⟩
  | .hbm, ⟨80, _⟩ => ⟨S32768x128, .f32⟩
  | .hbm, ⟨81, _⟩ => ⟨S_, .i32⟩
  | .hbm, ⟨82, _⟩ => ⟨S1000000, .i32⟩
  | .hbm, ⟨83, _⟩ => ⟨S1000000, .i1⟩
  | .hbm, ⟨84, _⟩ => ⟨S_, .i32⟩
  | .hbm, ⟨85, _⟩ => ⟨S1000000, .i32⟩
  | .hbm, ⟨86, _⟩ => ⟨S1000000, .i32⟩
  | .hbm, ⟨87, _⟩ => ⟨S1000000, .i32⟩
  | .hbm, ⟨88, _⟩ => ⟨S1000000x1, .i32⟩
  | .hbm, ⟨89, _⟩ => ⟨S1000000x128, .f32⟩
  | .hbm, ⟨90, _⟩ => ⟨S_, .f32⟩
  | .hbm, ⟨91, _⟩ => ⟨S1000000x128, .f32⟩
  | .hbm, ⟨92, _⟩ => ⟨S1000000x1, .i32⟩
  | .hbm, ⟨93, _⟩ => ⟨S1000000x128, .f32⟩
  | .hbm, ⟨94, _⟩ => ⟨S1x128, .f32⟩
  | .hbm, ⟨95, _⟩ => ⟨S32768x128, .f32⟩
  | .hbm, ⟨96, _⟩ => ⟨S1x128, .f32⟩
  | .hbm, ⟨97, _⟩ => ⟨S1000000x128, .f32⟩
  | .hbm, ⟨98, _⟩ => ⟨S16384x256, .f32⟩
  | .hbm, ⟨99, _⟩ => ⟨S16384x3, .f32⟩
  | .hbm, ⟨100, _⟩ => ⟨S1x3, .f32⟩
  | .hbm, ⟨101, _⟩ => ⟨S16384x3, .f32⟩
  | .hbm, ⟨102, _⟩ => ⟨S16384x3, .f32⟩
  | .hbm, ⟨103, _⟩ => ⟨S_, .f32⟩
  | .hbm, ⟨104, _⟩ => ⟨S16384, .f32⟩
  | .hbm, ⟨105, _⟩ => ⟨S_, .f32⟩
  | .hbm, ⟨106, _⟩ => ⟨S16384, .f32⟩
  | .hbm, ⟨107, _⟩ => ⟨S16384, .f32⟩
  | .hbm, ⟨108, _⟩ => ⟨S16384x1, .f32⟩
  | .hbm, ⟨109, _⟩ => ⟨S16384x3, .f32⟩
  | .hbm, ⟨110, _⟩ => ⟨S16384x3, .f32⟩
  | .hbm, ⟨111, _⟩ => ⟨S16384x3, .f32⟩
  | .hbm, ⟨112, _⟩ => ⟨S_, .f32⟩
  | .hbm, ⟨113, _⟩ => ⟨S16384, .f32⟩
  | .hbm, ⟨114, _⟩ => ⟨S16384x1, .f32⟩
  | .hbm, ⟨115, _⟩ => ⟨S16384x3, .f32⟩
  | .hbm, ⟨116, _⟩ => ⟨S16384x3, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S8192x128, .f32⟩
  | .local _ .vmem, ⟨8, _⟩ => ⟨S8192x128, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x128, .f32⟩
  | .local _ .vmem, ⟨14, _⟩ => ⟨S1x128, .f32⟩
  | .local _ .vmem, ⟨15, _⟩ => ⟨S64x128, .f32⟩
  | .local _ .vmem, ⟨16, _⟩ => ⟨S10000x128, .f32⟩
  | .local _ .vmem, ⟨17, _⟩ => ⟨S10000x128, .f32⟩
  | .local _ .vmem, ⟨18, _⟩ => ⟨S8192x128, .f32⟩
  | .local _ .vmem, ⟨19, _⟩ => ⟨S8192x128, .f32⟩
  | .local _ .vmem, ⟨20, _⟩ => ⟨S8192x128, .f32⟩
  | .local _ .vmem, ⟨21, _⟩ => ⟨S8192x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S8192x128, .f32⟩
  | .local _ .vmem, ⟨26, _⟩ => ⟨S8192x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S10000x128, .f32⟩
  | .local _ .vmem, ⟨35, _⟩ => ⟨S10000x128, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_c_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_7 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call0_v0 : Ref sig .tc := ⟨.hbm, 64, rfl⟩
abbrev main_v34 : Ref sig .tc := ⟨.hbm, 65, rfl⟩
abbrev main_call1_v0 : Ref sig .tc := ⟨.hbm, 66, rfl⟩
abbrev main_v35 : Ref sig .tc := ⟨.hbm, 67, rfl⟩
abbrev main_c_8 : Ref sig .tc := ⟨.hbm, 68, rfl⟩
abbrev main_v36 : Ref sig .tc := ⟨.hbm, 69, rfl⟩
abbrev main_v37 : Ref sig .tc := ⟨.hbm, 70, rfl⟩
abbrev main_c_9 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_10 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_11 : Ref sig .tc := ⟨.hbm, 81, rfl⟩
abbrev main_v46 : Ref sig .tc := ⟨.hbm, 82, rfl⟩
abbrev main_v47 : Ref sig .tc := ⟨.hbm, 83, rfl⟩
abbrev main_c_12 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_13 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_call2_v0 : Ref sig .tc := ⟨.hbm, 94, rfl⟩
abbrev main_v56 : Ref sig .tc := ⟨.hbm, 95, rfl⟩
abbrev main_call3_v0 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_14 : Ref sig .tc := ⟨.hbm, 103, rfl⟩
abbrev main_v63 : Ref sig .tc := ⟨.hbm, 104, rfl⟩
abbrev main_cst_15 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_16 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S32768x64 : S_.BroadcastsInDim S32768x64 (![] : Fin 0 → Fin S32768x64.rank)
  bcast_S_S1000000x64 : S_.BroadcastsInDim S1000000x64 (![] : Fin 0 → Fin S1000000x64.rank)
  shapeCasts_S128_S1x128 : S128.ShapeCasts S1x128
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S32768x128 : S_.BroadcastsInDim S32768x128 (![] : Fin 0 → Fin S32768x128.rank)
  bcast_S_S1000000x128 : S_.BroadcastsInDim S1000000x128 (![] : Fin 0 → Fin S1000000x128.rank)
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  shapeCasts_S32768x128_S16384x256 : S32768x128.ShapeCasts S16384x256
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  reducesTo_S16384x3_S16384_d1 : S16384x3.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x3_0_1 : S16384x1.BroadcastsInDim S16384x3 (![0, 1] : Fin 2 → Fin S16384x3.rank)
  gather_S1000000x64_S1000000x1_S1000000x64_1_0_n_n_0_1_164_wf : GatherDims.WF S1000000x64 S1000000x1 S1000000x64 [1] [0] [] [0] [] 1 ![1, 64]
  gather_S50000x64_S32768x1_S32768x64_1_0_n_n_0_1_164_wf : GatherDims.WF S50000x64 S32768x1 S32768x64 [1] [0] [] [0] [] 1 ![1, 64]
  scatter_S32768x64_S1000000x1_S1000000x64_1_0_0_1_wf : ScatterDims.WF S32768x64 S1000000x1 S1000000x64 [1] [0] [0] 1
  gather_S32768x64_S1000000x1_S1000000x64_1_0_n_n_0_1_164_wf : GatherDims.WF S32768x64 S1000000x1 S1000000x64 [1] [0] [] [0] [] 1 ![1, 64]
  scatter_S1000000x64_S1000000x1_S1000000x64_1_0_0_1_wf : ScatterDims.WF S1000000x64 S1000000x1 S1000000x64 [1] [0] [0] 1
  dot_S8192x64_S64x128_S8192x128_1_0_0_1_n_n_wf : DotDims.WF S8192x64 S64x128 S8192x128 [1] [0] [0] [1] [] []
  dot_S10000x64_S64x128_S10000x128_1_0_0_1_n_n_wf : DotDims.WF S10000x64 S64x128 S10000x128 [1] [0] [0] [1] [] []
  gather_S1000000x128_S1000000x1_S1000000x128_1_0_n_n_0_1_1128_wf : GatherDims.WF S1000000x128 S1000000x1 S1000000x128 [1] [0] [] [0] [] 1 ![1, 128]
  scatter_S32768x128_S1000000x1_S1000000x128_1_0_0_1_wf : ScatterDims.WF S32768x128 S1000000x1 S1000000x128 [1] [0] [0] 1
  gather_S32768x128_S1000000x1_S1000000x128_1_0_n_n_0_1_1128_wf : GatherDims.WF S32768x128 S1000000x1 S1000000x128 [1] [0] [] [0] [] 1 ![1, 128]
  scatter_S1000000x128_S1000000x1_S1000000x128_1_0_0_1_wf : ScatterDims.WF S1000000x128 S1000000x1 S1000000x128 [1] [0] [0] 1
  dot_S8192x128_S128x128_S8192x128_1_0_0_1_n_n_wf : DotDims.WF S8192x128 S128x128 S8192x128 [1] [0] [0] [1] [] []
  dot_S10000x128_S128x128_S10000x128_1_0_0_1_n_n_wf : DotDims.WF S10000x128 S128x128 S10000x128 [1] [0] [0] [1] [] []
  dot_S16384x256_S256x3_S16384x3_1_0_0_1_n_n_wf : DotDims.WF S16384x256 S256x3 S16384x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S32768x64.size a
  hwx0_0 : ∀ i : grid0.Coords, EltTy.bits .f32 = 32 ∨ (Rect.block (s := S32768x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S32768x64.size a
  hwx0_1 : ∀ i : grid0.Coords, EltTy.bits .f32 = 32 ∨ (Rect.block (s := S32768x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S32768x128.size a
  hwx0_5 : ∀ i : grid0.Coords, EltTy.bits .f32 = 32 ∨ (Rect.block (s := S32768x128) S8192x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1000000x64.size a
  hwx1_1 : ∀ i : grid1.Coords, EltTy.bits .f32 = 32 ∨ (Rect.block (s := S1000000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S1000000x128.size a
  hwx1_5 : ∀ i : grid1.Coords, EltTy.bits .f32 = 32 ∨ (Rect.block (s := S1000000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S32768x128.size a
  hwx2_0 : ∀ i : grid2.Coords, EltTy.bits .f32 = 32 ∨ (Rect.block (s := S32768x128) S8192x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S32768x128.size a
  hwx2_1 : ∀ i : grid2.Coords, EltTy.bits .f32 = 32 ∨ (Rect.block (s := S32768x128) S8192x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8192x128.size a ≤ S32768x128.size a
  hwx2_5 : ∀ i : grid2.Coords, EltTy.bits .f32 = 32 ∨ (Rect.block (s := S32768x128) S8192x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S1000000x128.size a
  hwx3_0 : ∀ i : grid3.Coords, EltTy.bits .f32 = 32 ∨ (Rect.block (s := S1000000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S1000000x128.size a
  hwx3_1 : ∀ i : grid3.Coords, EltTy.bits .f32 = 32 ∨ (Rect.block (s := S1000000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S1000000x128.size a
  hwx3_5 : ∀ i : grid3.Coords, EltTy.bits .f32 = 32 ∨ (Rect.block (s := S1000000x128) S10000x128.size (cc3_transform_5 i) (hinb3_5 i)).WholeWords (EltTy.packing .f32)

variable [Facts₀]

def gather_S1000000x64_S1000000x1_S1000000x64_1_0_n_n_0_1_164 : GatherDims S1000000x64 S1000000x1 S1000000x64 where
  offsetDims := [1]
  collapsedSliceDims := [0]
  operandBatchingDims := []
  startIndicesBatchingDims := []
  startIndexMap := [0]
  indexVectorDim := 1
  sliceSizes := ![1, 64]
  wf := gather_S1000000x64_S1000000x1_S1000000x64_1_0_n_n_0_1_164_wf
def gather_S50000x64_S32768x1_S32768x64_1_0_n_n_0_1_164 : GatherDims S50000x64 S32768x1 S32768x64 where
  offsetDims := [1]
  collapsedSliceDims := [0]
  operandBatchingDims := []
  startIndicesBatchingDims := []
  startIndexMap := [0]
  indexVectorDim := 1
  sliceSizes := ![1, 64]
  wf := gather_S50000x64_S32768x1_S32768x64_1_0_n_n_0_1_164_wf
def scatter_S32768x64_S1000000x1_S1000000x64_1_0_0_1 : ScatterDims S32768x64 S1000000x1 S1000000x64 where
  updateWindowDims := [1]
  insertedWindowDims := [0]
  scatterDimsToOperandDims := [0]
  indexVectorDim := 1
  wf := scatter_S32768x64_S1000000x1_S1000000x64_1_0_0_1_wf
def gather_S32768x64_S1000000x1_S1000000x64_1_0_n_n_0_1_164 : GatherDims S32768x64 S1000000x1 S1000000x64 where
  offsetDims := [1]
  collapsedSliceDims := [0]
  operandBatchingDims := []
  startIndicesBatchingDims := []
  startIndexMap := [0]
  indexVectorDim := 1
  sliceSizes := ![1, 64]
  wf := gather_S32768x64_S1000000x1_S1000000x64_1_0_n_n_0_1_164_wf
def scatter_S1000000x64_S1000000x1_S1000000x64_1_0_0_1 : ScatterDims S1000000x64 S1000000x1 S1000000x64 where
  updateWindowDims := [1]
  insertedWindowDims := [0]
  scatterDimsToOperandDims := [0]
  indexVectorDim := 1
  wf := scatter_S1000000x64_S1000000x1_S1000000x64_1_0_0_1_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S1000000x128_S1000000x1_S1000000x128_1_0_n_n_0_1_1128 : GatherDims S1000000x128 S1000000x1 S1000000x128 where
  offsetDims := [1]
  collapsedSliceDims := [0]
  operandBatchingDims := []
  startIndicesBatchingDims := []
  startIndexMap := [0]
  indexVectorDim := 1
  sliceSizes := ![1, 128]
  wf := gather_S1000000x128_S1000000x1_S1000000x128_1_0_n_n_0_1_1128_wf
def scatter_S32768x128_S1000000x1_S1000000x128_1_0_0_1 : ScatterDims S32768x128 S1000000x1 S1000000x128 where
  updateWindowDims := [1]
  insertedWindowDims := [0]
  scatterDimsToOperandDims := [0]
  indexVectorDim := 1
  wf := scatter_S32768x128_S1000000x1_S1000000x128_1_0_0_1_wf
def gather_S32768x128_S1000000x1_S1000000x128_1_0_n_n_0_1_1128 : GatherDims S32768x128 S1000000x1 S1000000x128 where
  offsetDims := [1]
  collapsedSliceDims := [0]
  operandBatchingDims := []
  startIndicesBatchingDims := []
  startIndexMap := [0]
  indexVectorDim := 1
  sliceSizes := ![1, 128]
  wf := gather_S32768x128_S1000000x1_S1000000x128_1_0_n_n_0_1_1128_wf
def scatter_S1000000x128_S1000000x1_S1000000x128_1_0_0_1 : ScatterDims S1000000x128 S1000000x1 S1000000x128 where
  updateWindowDims := [1]
  insertedWindowDims := [0]
  scatterDimsToOperandDims := [0]
  indexVectorDim := 1
  wf := scatter_S1000000x128_S1000000x1_S1000000x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S16384x256_S256x3_S16384x3_1_0_0_1_n_n : DotDims S16384x256 S256x3 S16384x3 where
  lhsContracting := [1]
  rhsContracting := [0]
  lhsNonContracting := [0]
  rhsNonContracting := [1]
  lhsBatch := []
  rhsBatch := []
  wf := dot_S16384x256_S256x3_S16384x3_1_0_0_1_n_n_wf

abbrev win0_0 : Pipeline.Window sig grid0 :=
  Pipeline.Window.ofSpec (Memref.whole main_v23) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call1_v0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S8192x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call2_v0) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S8192x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call3_v0) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S1000000 : Shape := ⟨1, ![1000000]⟩
abbrev S32768 : Shape := ⟨1, ![32768]⟩
abbrev S1000000x64 : Shape := ⟨2, ![1000000, 64]⟩
abbrev S50000x64 : Shape := ⟨2, ![50000, 64]⟩
abbrev S64x128 : Shape := ⟨2, ![64, 128]⟩
abbrev S128 : Shape := ⟨1, ![128]⟩
abbrev S128x128 : Shape := ⟨2, ![128, 128]⟩
abbrev S256x3 : Shape := ⟨2, ![256, 3]⟩
abbrev S3 : Shape := ⟨1, ![3]⟩
abbrev S_ : Shape := ⟨0, ![]⟩
abbrev S1000000x1 : Shape := ⟨2, ![1000000, 1]⟩
abbrev S32768x1 : Shape := ⟨2, ![32768, 1]⟩
abbrev S32768x64 : Shape := ⟨2, ![32768, 64]⟩
abbrev S32768x128 : Shape := ⟨2, ![32768, 128]⟩
abbrev S1x128 : Shape := ⟨2, ![1, 128]⟩
abbrev S1000000x128 : Shape := ⟨2, ![1000000, 128]⟩
abbrev S16384x256 : Shape := ⟨2, ![16384, 256]⟩
abbrev S16384x3 : Shape := ⟨2, ![16384, 3]⟩
abbrev S1x3 : Shape := ⟨2, ![1, 3]⟩
abbrev S16384 : Shape := ⟨1, ![16384]⟩
abbrev S16384x1 : Shape := ⟨2, ![16384, 1]⟩

abbrev nBuf : Space → Nat
  | .hbm => 145
  | .vmem => 0
  | .smem => 0
  | _ => 0

abbrev hbmTy0_0 (i : Nat) : BufTy := match i % 128 with
  | 0 => ⟨S1000000, .i32⟩
  | 1 => ⟨S32768, .i32⟩
  | 2 => ⟨S1000000, .i32⟩
  | 3 => ⟨S1000000, .i32⟩
  | 4 => ⟨S1000000x64, .f32⟩
  | 5 => ⟨S50000x64, .f32⟩
  | 6 => ⟨S64x128, .f32⟩
  | 7 => ⟨S128, .f32⟩
  | 8 => ⟨S64x128, .f32⟩
  | 9 => ⟨S64x128, .f32⟩
  | 10 => ⟨S128, .f32⟩
  | 11 => ⟨S64x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S256x3, .f32⟩
  | 19 => ⟨S3, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x64, .f32⟩
  | 29 => ⟨S_, .i32⟩
  | 30 => ⟨S32768, .i32⟩
  | 31 => ⟨S32768, .i1⟩
  | 32 => ⟨S_, .i32⟩
  | 33 => ⟨S32768, .i32⟩
  | 34 => ⟨S32768, .i32⟩
  | 35 => ⟨S32768, .i32⟩
  | 36 => ⟨S32768x1, .i32⟩
  | 37 => ⟨S32768x64, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000x64, .f32⟩
  | 47 => ⟨S_, .f32⟩
  | 48 => ⟨S32768x64, .f32⟩
  | 49 => ⟨S1000000x1, .i32⟩
  | 50 => ⟨S32768x64, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x64, .f32⟩
  | 60 => ⟨S_, .f32⟩
  | 61 => ⟨S1000000x64, .f32⟩
  | 62 => ⟨S1000000x1, .i32⟩
  | 63 => ⟨S1000000x64, .f32⟩
  | 64 => ⟨S32768x128, .f32⟩
  | 65 => ⟨S1x128, .f32⟩
  | 66 => ⟨S32768x128, .f32⟩
  | 67 => ⟨S32768x128, .f32⟩
  | 68 => ⟨S32768x128, .f32⟩
  | 69 => ⟨S32768x128, .f32⟩
  | 70 => ⟨S_, .f32⟩
  | 71 => ⟨S32768x128, .f32⟩
  | 72 => ⟨S32768x128, .f32⟩
  | 73 => ⟨S1000000x128, .f32⟩
  | 74 => ⟨S1x128, .f32⟩
  | 75 => ⟨S1000000x128, .f32⟩
  | 76 => ⟨S1000000x128, .f32⟩
  | 77 => ⟨S1000000x128, .f32⟩
  | 78 => ⟨S1000000x128, .f32⟩
  | 79 => ⟨S_, .f32⟩
  | 80 => ⟨S1000000x128, .f32⟩
  | 81 => ⟨S1000000x128, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x128, .f32⟩
  | 91 => ⟨S_, .f32⟩
  | 92 => ⟨S32768x128, .f32⟩
  | 93 => ⟨S1000000x1, .i32⟩
  | 94 => ⟨S32768x128, .f32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x128, .f32⟩
  | 104 => ⟨S_, .f32⟩
  | 105 => ⟨S1000000x128, .f32⟩
  | 106 => ⟨S1000000x1, .i32⟩
  | 107 => ⟨S1000000x128, .f32⟩
  | 108 => ⟨S32768x128, .f32⟩
  | 109 => ⟨S1x128, .f32⟩
  | 110 => ⟨S32768x128, .f32⟩
  | 111 => ⟨S32768x128, .f32⟩
  | 112 => ⟨S32768x128, .f32⟩
  | 113 => ⟨S32768x128, .f32⟩
  | 114 => ⟨S_, .f32⟩
  | 115 => ⟨S32768x128, .f32⟩
  | 116 => ⟨S32768x128, .f32⟩
  | 117 => ⟨S1000000x128, .f32⟩
  | 118 => ⟨S1x128, .f32⟩
  | 119 => ⟨S1000000x128, .f32⟩
  | 120 => ⟨S1000000x128, .f32⟩
  | 121 => ⟨S1000000x128, .f32⟩
  | 122 => ⟨S1000000x128, .f32⟩
  | 123 => ⟨S_, .f32⟩
  | 124 => ⟨S1000000x128, .f32⟩
  | 125 => ⟨S1000000x128, .f32⟩
  | 126 => ⟨S16384x256, .f32⟩
  | 127 => ⟨S16384x3, .f32⟩
  | _ => ⟨S1000000, .i32⟩

abbrev hbmTy0_1 (i : Nat) : BufTy := match i % 128 with
  | 0 => ⟨S1x3, .f32⟩
  | 1 => ⟨S16384x3, .f32⟩
  | 2 => ⟨S16384x3, .f32⟩
  | 3 => ⟨S_, .f32⟩
  | 4 => ⟨S16384, .f32⟩
  | 5 => ⟨S_, .f32⟩
  | 6 => ⟨S16384, .f32⟩
  | 7 => ⟨S16384, .f32⟩
  | 8 => ⟨S16384x1, .f32⟩
  | 9 => ⟨S16384x3, .f32⟩
  | 10 => ⟨S16384x3, .f32⟩
  | 11 => ⟨S16384x3, .f32⟩
  | 12 => ⟨S_, .f32⟩
  | 13 => ⟨S16384, .f32⟩
  | 14 => ⟨S16384x1, .f32⟩
  | 15 => ⟨S16384x3, .f32⟩
  | 16 => ⟨S16384x3, .f32⟩
  | _ => ⟨S1000000, .i32⟩

abbrev hbmTy (i : Nat) : BufTy := match i / 128 with
  | 0 => hbmTy0_0 i
  | 1 => hbmTy0_1 i
  | _ => ⟨S1000000, .i32⟩

abbrev bufTy : (tb : Table) → Fin (tcTables nBuf tb) → BufTy
  | .hbm, ⟨i, _⟩ => hbmTy i
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_c_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_7 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_call0_cst : Ref sig .tc := ⟨.hbm, 70, rfl⟩
abbrev main_call0_v0 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call1_cst : Ref sig .tc := ⟨.hbm, 79, rfl⟩
abbrev main_call1_v0 : Ref sig .tc := ⟨.hbm, 80, rfl⟩
abbrev main_v47 : Ref sig .tc := ⟨.hbm, 81, rfl⟩
abbrev main_c_8 : Ref sig .tc := ⟨.hbm, 82, rfl⟩
abbrev main_v48 : Ref sig .tc := ⟨.hbm, 83, rfl⟩
abbrev main_v49 : Ref sig .tc := ⟨.hbm, 84, rfl⟩
abbrev main_c_9 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_10 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_11 : Ref sig .tc := ⟨.hbm, 95, rfl⟩
abbrev main_v58 : Ref sig .tc := ⟨.hbm, 96, rfl⟩
abbrev main_v59 : Ref sig .tc := ⟨.hbm, 97, rfl⟩
abbrev main_c_12 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_13 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_call2_cst : Ref sig .tc := ⟨.hbm, 114, rfl⟩
abbrev main_call2_v0 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_call3_cst : Ref sig .tc := ⟨.hbm, 123, rfl⟩
abbrev main_call3_v0 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_14 : Ref sig .tc := ⟨.hbm, 131, rfl⟩
abbrev main_v87 : Ref sig .tc := ⟨.hbm, 132, rfl⟩
abbrev main_cst_15 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_16 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S32768x64 : S_.BroadcastsInDim S32768x64 (![] : Fin 0 → Fin S32768x64.rank)
  bcast_S_S1000000x64 : S_.BroadcastsInDim S1000000x64 (![] : Fin 0 → Fin S1000000x64.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  shapeCasts_S32768x128_S16384x256 : S32768x128.ShapeCasts S16384x256
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  reducesTo_S16384x3_S16384_d1 : S16384x3.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x3_0_1 : S16384x1.BroadcastsInDim S16384x3 (![0, 1] : Fin 2 → Fin S16384x3.rank)
  gather_S1000000x64_S1000000x1_S1000000x64_1_0_n_n_0_1_164_wf : GatherDims.WF S1000000x64 S1000000x1 S1000000x64 [1] [0] [] [0] [] 1 ![1, 64]
  gather_S50000x64_S32768x1_S32768x64_1_0_n_n_0_1_164_wf : GatherDims.WF S50000x64 S32768x1 S32768x64 [1] [0] [] [0] [] 1 ![1, 64]
  scatter_S32768x64_S1000000x1_S1000000x64_1_0_0_1_wf : ScatterDims.WF S32768x64 S1000000x1 S1000000x64 [1] [0] [0] 1
  gather_S32768x64_S1000000x1_S1000000x64_1_0_n_n_0_1_164_wf : GatherDims.WF S32768x64 S1000000x1 S1000000x64 [1] [0] [] [0] [] 1 ![1, 64]
  scatter_S1000000x64_S1000000x1_S1000000x64_1_0_0_1_wf : ScatterDims.WF S1000000x64 S1000000x1 S1000000x64 [1] [0] [0] 1
  dot_S32768x64_S64x128_S32768x128_1_0_0_1_n_n_wf : DotDims.WF S32768x64 S64x128 S32768x128 [1] [0] [0] [1] [] []
  dot_S1000000x64_S64x128_S1000000x128_1_0_0_1_n_n_wf : DotDims.WF S1000000x64 S64x128 S1000000x128 [1] [0] [0] [1] [] []
  gather_S1000000x128_S1000000x1_S1000000x128_1_0_n_n_0_1_1128_wf : GatherDims.WF S1000000x128 S1000000x1 S1000000x128 [1] [0] [] [0] [] 1 ![1, 128]
  scatter_S32768x128_S1000000x1_S1000000x128_1_0_0_1_wf : ScatterDims.WF S32768x128 S1000000x1 S1000000x128 [1] [0] [0] 1
  gather_S32768x128_S1000000x1_S1000000x128_1_0_n_n_0_1_1128_wf : GatherDims.WF S32768x128 S1000000x1 S1000000x128 [1] [0] [] [0] [] 1 ![1, 128]
  scatter_S1000000x128_S1000000x1_S1000000x128_1_0_0_1_wf : ScatterDims.WF S1000000x128 S1000000x1 S1000000x128 [1] [0] [0] 1
  dot_S32768x128_S128x128_S32768x128_1_0_0_1_n_n_wf : DotDims.WF S32768x128 S128x128 S32768x128 [1] [0] [0] [1] [] []
  dot_S1000000x128_S128x128_S1000000x128_1_0_0_1_n_n_wf : DotDims.WF S1000000x128 S128x128 S1000000x128 [1] [0] [0] [1] [] []
  dot_S16384x256_S256x3_S16384x3_1_0_0_1_n_n_wf : DotDims.WF S16384x256 S256x3 S16384x3 [1] [0] [0] [1] [] []

variable [Facts₀]

def gather_S1000000x64_S1000000x1_S1000000x64_1_0_n_n_0_1_164 : GatherDims S1000000x64 S1000000x1 S1000000x64 where
  offsetDims := [1]
  collapsedSliceDims := [0]
  operandBatchingDims := []
  startIndicesBatchingDims := []
  startIndexMap := [0]
  indexVectorDim := 1
  sliceSizes := ![1, 64]
  wf := gather_S1000000x64_S1000000x1_S1000000x64_1_0_n_n_0_1_164_wf
def gather_S50000x64_S32768x1_S32768x64_1_0_n_n_0_1_164 : GatherDims S50000x64 S32768x1 S32768x64 where
  offsetDims := [1]
  collapsedSliceDims := [0]
  operandBatchingDims := []
  startIndicesBatchingDims := []
  startIndexMap := [0]
  indexVectorDim := 1
  sliceSizes := ![1, 64]
  wf := gather_S50000x64_S32768x1_S32768x64_1_0_n_n_0_1_164_wf
def scatter_S32768x64_S1000000x1_S1000000x64_1_0_0_1 : ScatterDims S32768x64 S1000000x1 S1000000x64 where
  updateWindowDims := [1]
  insertedWindowDims := [0]
  scatterDimsToOperandDims := [0]
  indexVectorDim := 1
  wf := scatter_S32768x64_S1000000x1_S1000000x64_1_0_0_1_wf
def gather_S32768x64_S1000000x1_S1000000x64_1_0_n_n_0_1_164 : GatherDims S32768x64 S1000000x1 S1000000x64 where
  offsetDims := [1]
  collapsedSliceDims := [0]
  operandBatchingDims := []
  startIndicesBatchingDims := []
  startIndexMap := [0]
  indexVectorDim := 1
  sliceSizes := ![1, 64]
  wf := gather_S32768x64_S1000000x1_S1000000x64_1_0_n_n_0_1_164_wf
def scatter_S1000000x64_S1000000x1_S1000000x64_1_0_0_1 : ScatterDims S1000000x64 S1000000x1 S1000000x64 where
  updateWindowDims := [1]
  insertedWindowDims := [0]
  scatterDimsToOperandDims := [0]
  indexVectorDim := 1
  wf := scatter_S1000000x64_S1000000x1_S1000000x64_1_0_0_1_wf
def dot_S32768x64_S64x128_S32768x128_1_0_0_1_n_n : DotDims S32768x64 S64x128 S32768x128 where
  lhsContracting := [1]
  rhsContracting := [0]
  lhsNonContracting := [0]
  rhsNonContracting := [1]
  lhsBatch := []
  rhsBatch := []
  wf := dot_S32768x64_S64x128_S32768x128_1_0_0_1_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def gather_S1000000x128_S1000000x1_S1000000x128_1_0_n_n_0_1_1128 : GatherDims S1000000x128 S1000000x1 S1000000x128 where
  offsetDims := [1]
  collapsedSliceDims := [0]
  operandBatchingDims := []
  startIndicesBatchingDims := []
  startIndexMap := [0]
  indexVectorDim := 1
  sliceSizes := ![1, 128]
  wf := gather_S1000000x128_S1000000x1_S1000000x128_1_0_n_n_0_1_1128_wf
def scatter_S32768x128_S1000000x1_S1000000x128_1_0_0_1 : ScatterDims S32768x128 S1000000x1 S1000000x128 where
  updateWindowDims := [1]
  insertedWindowDims := [0]
  scatterDimsToOperandDims := [0]
  indexVectorDim := 1
  wf := scatter_S32768x128_S1000000x1_S1000000x128_1_0_0_1_wf
def gather_S32768x128_S1000000x1_S1000000x128_1_0_n_n_0_1_1128 : GatherDims S32768x128 S1000000x1 S1000000x128 where
  offsetDims := [1]
  collapsedSliceDims := [0]
  operandBatchingDims := []
  startIndicesBatchingDims := []
  startIndexMap := [0]
  indexVectorDim := 1
  sliceSizes := ![1, 128]
  wf := gather_S32768x128_S1000000x1_S1000000x128_1_0_n_n_0_1_1128_wf
def scatter_S1000000x128_S1000000x1_S1000000x128_1_0_0_1 : ScatterDims S1000000x128 S1000000x1 S1000000x128 where
  updateWindowDims := [1]
  insertedWindowDims := [0]
  scatterDimsToOperandDims := [0]
  indexVectorDim := 1
  wf := scatter_S1000000x128_S1000000x1_S1000000x128_1_0_0_1_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S16384x256_S256x3_S16384x3_1_0_0_1_n_n : DotDims S16384x256 S256x3 S16384x3 where
  lhsContracting := [1]
  rhsContracting := [0]
  lhsNonContracting := [0]
  rhsNonContracting := [1]
  lhsBatch := []
  rhsBatch := []
  wf := dot_S16384x256_S256x3_S16384x3_1_0_0_1_n_n_wf

class Facts : Prop extends Facts₀ where

variable [Facts]
-- ==== Proof.KernelRun.lean ====
/-
  The kernel program's run with its two results named.

  @main is eleven segments: stretches of host operations and four row-tiled GraphConv regions. The contents of the
  TensorCore's buffers at each boundary are a fold from the launch memory: a host stretch applies its operations, a
  region replaces its output array by what its write-backs leave. Every weakly fair execution terminates, nothing
  faults, and every unscoped buffer ends at the last boundary's contents; read at the two returned buffers (the class
  probabilities and the second layer's team features) and at the twenty arguments, that is the statement below. The
  arguments end as launched, since no host operation and no region writes one.
-/
import proofs.«144967_j180388626835_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the class probabilities and the second layer's team features
    at the last boundary's contents of their buffers, and the arguments as launched. -/
theorem run : θ_run defs (onTc (τ := τ) (main (F := F))) ⟨m, fun _ => 0, ρ⟩ (fun r => ∀ c : Dev nD,
      r.2.mem ((c.tc : Thread nD τ).loc main_v73) = W11 m ρ c (Proc.devRef .tc main_v73)
      ∧ r.2.mem ((c.tc : Thread nD τ).loc main_v56) = W11 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v73 (by decide)),
       h c _ (mem_uc main_v56 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c)⟩)

end Cert.KernelIdeal.Results

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibRowInDim.lean ====
/-
  The row forms of `broadcast_in_dim`, read at an index given by coordinates: a vector `[b]` laid as the row
  `[1, b]` (its axis sent to axis 1), and a row `[1, b]` repeated down the rows to `[a, b]` (axes sent to
  themselves). This is how a per-column quantity — a bias — is added to every row of a matrix: both read the
  operand at the column coordinate alone. (`b ≠ 1`: on an axis of extent one a broadcast reads coordinate 0
  whatever the index, and the statements would need no hypothesis but another proof.)
-/
import Idealize.ShloMosaic.Lib.Pipeline.Value
import Idealize.ShloMosaic.Lib.ValueIdx

namespace Cert.Lib.RowInDim

open Idealize.ShloMosaic Idealize.ShloMosaic.ValueIdx

variable {α : Type}

/-- A vector `[b]` laid as the row `[1, b]` reads, at `(u, q)`, the vector at `q`. -/
theorem row_apply {b : ℕ} (hb : b ≠ 1) (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) :=
  broadcastInDim_apply _ h v (ix2 u q) (ix1 q) (fun a => match a with
    | ⟨0, _⟩ => by show q.val = if b = 1 then 0 else q.val; rw [if_neg hb])

/-- A row `[1, b]` repeated down the rows to `[a, b]` reads, at `(P, q)`, the row's entry of column `q`. -/
theorem repeat_apply {a b : ℕ} (hb : b ≠ 1) (h : (⟨2, ![1, b]⟩ : Shape).BroadcastsInDim ⟨2, ![a, b]⟩ ![0, 1])
    (v : (⟨2, ![1, b]⟩ : Shape).Idx → α) (P : Fin a) (q : Fin b) :
    broadcastInDim ⟨2, ![a, b]⟩ ![0, 1] h v (ix2 P q) = v (ix2 (0 : Fin 1) q) :=
  broadcastInDim_apply _ h v (ix2 P q) (ix2 (0 : Fin 1) q) (fun ax => match ax with
    | ⟨0, _⟩ => by show 0 = if (1 : ℕ) = 1 then 0 else P.val; rw [if_pos rfl]
    | ⟨1, _⟩ => by show q.val = if b = 1 then 0 else q.val; rw [if_neg hb])

end Cert.Lib.RowInDim
-- ==== Proof.LibRowReshape.lean ====
/-
  Two ways of laying a vector `[b]` as the one-row matrix `[1, b]` give the same array: a reshape (a shape
  cast, which keeps the row-major position) and a `broadcast_in_dim` sending the vector's axis to axis 1.
  Both read, at `(u, q)`, the vector at `q`. A kernel's host side reshapes a bias before the call where
  plain jnp broadcasts it; this is the bridge between the two spellings. (`b ≠ 1`, as for the row forms of
  `broadcast_in_dim`.)
-/
import Idealize.ShloMosaic.Lib.Pipeline.Value
import Idealize.ShloMosaic.Lib.ValueIdx
import Idealize.ShloMosaic.Lib.ValueLayout

namespace Cert.Lib.RowReshape

open Idealize.ShloMosaic Idealize.ShloMosaic.ValueIdx

variable {α : Type}

/-- The reshape of a vector `[b]` to `[1, b]` is the vector laid as a row by `broadcast_in_dim` (dims `[1]`). -/
theorem reshape_eq_inDim {b : ℕ} (hb : b ≠ 1) (hc : (⟨1, ![b]⟩ : Shape).ShapeCasts ⟨2, ![1, b]⟩)
    (hd : (⟨1, ![b]⟩ : Shape).BroadcastsInDim ⟨2, ![1, b]⟩ ![1]) (v : (⟨1, ![b]⟩ : Shape).Idx → α) :
    shapeCast ⟨2, ![1, b]⟩ v hc = broadcastInDim ⟨2, ![1, b]⟩ ![1] hd v := by
  funext i
  obtain ⟨u, q, rfl⟩ : ∃ (u : Fin 1) (q : Fin b), i = ix2 u q := ⟨i 0, i 1, eq_ix2 i⟩
  rw [shapeCast_a_1a_apply v hc u q]
  exact (broadcastInDim_apply _ hd v (ix2 u q) (ix1 q) (fun a => match a with
    | ⟨0, _⟩ => by show q.val = if b = 1 then 0 else q.val; rw [if_neg hb])).symm

end Cert.Lib.RowReshape
-- ==== Proof.LayerSpec.lean ====
/-
  One GraphConv linear layer, as a function of whole arrays, entry by entry.

  For an M×K matrix of aggregated neighbour features `agg`, an M×K matrix of node features `x`, two K×N weight
  matrices and a bias laid as a one-row matrix, entry (a, n) of the layer is

      max ( (∑_c agg(a,c) · W_rel(c,n)  +  ∑_c x(a,c) · W_root(c,n))  +  b(0,n) ,  0 ).

  Two programs compute it. A kernel body works on a block of rows: it narrows its operands to bf16 (no change of
  value on the extended reals), multiplies on the matrix unit into a zero accumulator, adds the two products, then
  the bias row broadcast down the rows, and takes the maximum with the zero splat. The plain program multiplies
  on the host, adds the bias (a vector laid as a row and repeated down the rows) to the FIRST product, then adds
  the second product, and takes the maximum with a broadcast zero. The two differ in the order of the two additions
  only: (p + r) + b against (p + b) + r, equal on the extended reals because their addition is commutative and
  associative (no finiteness is needed).
-/
import Idealize.ShloMosaic.Lib.KernelVsHost
import Idealize.ShloMosaic.Lib.ValueLayout
import proofs.«144967_j180388626835_1_alg».proof.Proof.LibContractPlain
import proofs.«144967_j180388626835_1_alg».proof.Proof.LibRowInDim
import proofs.«144967_j180388626835_1_alg».proof.Proof.LibRowReshape

noncomputable section

namespace Cert.GraphConv

open Idealize.ShloMosaic Idealize.ShloMosaic.ValueIdx

variable {M K N : ℕ}

/-- Entry (a, n) of the layer. -/
def layerAt (agg x : FVec Ideal ⟨2, ![M, K]⟩ .f32) (wrel wroot : FVec Ideal ⟨2, ![K, N]⟩ .f32)
    (brow : FVec Ideal ⟨2, ![1, N]⟩ .f32) (a : Fin M) (n : Fin N) : Ideal .f32 :=
  max (((∑ c : Fin K, agg (ix2 a c) * wrel (ix2 c n)) + ∑ c : Fin K, x (ix2 a c) * wroot (ix2 c n))
        + brow (ix2 (0 : Fin 1) n))
    (FloatOps.ofBits (F := Ideal) .f32 0x00000000#32)

/-- The layer as a whole array. -/
def layer (agg x : FVec Ideal ⟨2, ![M, K]⟩ .f32) (wrel wroot : FVec Ideal ⟨2, ![K, N]⟩ .f32)
    (brow : FVec Ideal ⟨2, ![1, N]⟩ .f32) : FVec Ideal ⟨2, ![M, N]⟩ .f32 :=
  fun i => layerAt agg x wrel wroot brow (i 0) (i 1)

theorem layer_ix2 (agg x : FVec Ideal ⟨2, ![M, K]⟩ .f32) (wrel wroot : FVec Ideal ⟨2, ![K, N]⟩ .f32)
    (brow : FVec Ideal ⟨2, ![1, N]⟩ .f32) (a : Fin M) (n : Fin N) :
    layer agg x wrel wroot brow (ix2 a n) = layerAt agg x wrel wroot brow a n := rfl

/-- An entry of the layer depends on one row of `agg` and `x`, one column of the weights and one entry of the bias:
    two layers over arrays that agree there (possibly arrays of different heights, read at different rows) agree at
    the entry. This is how a block of rows of the layer is the layer of the blocks. -/
theorem layerAt_congr {M' : ℕ} {agg x : FVec Ideal ⟨2, ![M, K]⟩ .f32} {wrel wroot : FVec Ideal ⟨2, ![K, N]⟩ .f32}
    {brow : FVec Ideal ⟨2, ![1, N]⟩ .f32} {agg' x' : FVec Ideal ⟨2, ![M', K]⟩ .f32}
    {wrel' wroot' : FVec Ideal ⟨2, ![K, N]⟩ .f32} {brow' : FVec Ideal ⟨2, ![1, N]⟩ .f32}
    {a : Fin M} {a' : Fin M'} {n : Fin N}
    (hagg : ∀ c, agg (ix2 a c) = agg' (ix2 a' c)) (hx : ∀ c, x (ix2 a c) = x' (ix2 a' c))
    (hrel : ∀ c, wrel (ix2 c n) = wrel' (ix2 c n)) (hroot : ∀ c, wroot (ix2 c n) = wroot' (ix2 c n))
    (hb : brow (ix2 (0 : Fin 1) n) = brow' (ix2 (0 : Fin 1) n)) :
    layerAt agg x wrel wroot brow a n = layerAt agg' x' wrel' wroot' brow' a' n := by
  have h1 : (∑ c : Fin K, agg (ix2 a c) * wrel (ix2 c n)) = ∑ c : Fin K, agg' (ix2 a' c) * wrel' (ix2 c n) :=
    Finset.sum_congr rfl (fun c _ => by rw [hagg c, hrel c])
  have h2 : (∑ c : Fin K, x (ix2 a c) * wroot (ix2 c n)) = ∑ c : Fin K, x' (ix2 a' c) * wroot' (ix2 c n) :=
    Finset.sum_congr rfl (fun c _ => by rw [hx c, hroot c])
  unfold layerAt
  rw [h1, h2, hb]

/-- THE KERNEL BODY on a block: narrowing to bf16, two products on the matrix unit into zero accumulators, their
    sum, the bias row broadcast down the rows, the maximum with the zero splat — read at entry (p, q) it is the
    layer of the blocks. -/
theorem body_apply (hN : N ≠ 1)
    (D : DotDims ⟨2, ![M, K]⟩ ⟨2, ![K, N]⟩ ⟨2, ![M, N]⟩) (hD : D = DotDims.plain M K N)
    (hcA : (⟨2, ![M, K]⟩ : Shape).ShapeCasts ⟨2, ![M, K]⟩)
    (hcB : (⟨2, ![1, N]⟩ : Shape).ShapeCasts ⟨2, ![1, N]⟩)
    (hbt : (⟨2, ![1, N]⟩ : Shape).Broadcasts ⟨2, ![M, N]⟩)
    (hlt : FTy.bf16.bits < FTy.f32.bits)
    (x0 x1 : FVec Ideal ⟨2, ![M, K]⟩ .f32) (x2 x4 : FVec Ideal ⟨2, ![K, N]⟩ .f32)
    (x3 : FVec Ideal ⟨2, ![1, N]⟩ .f32) (p : Fin M) (q : Fin N) :
    maximumf (addf (addf
        (matmul D none (truncf .bf16 (shapeCast ⟨2, ![M, K]⟩ x0 hcA) hlt) (truncf .bf16 x2 hlt)
          (constant ⟨2, ![M, N]⟩ .f32 0x00000000#32))
        (matmul D none (truncf .bf16 (shapeCast ⟨2, ![M, K]⟩ x1 hcA) hlt) (truncf .bf16 x4 hlt)
          (constant ⟨2, ![M, N]⟩ .f32 0x00000000#32)))
        (broadcastTo ⟨2, ![M, N]⟩ (shapeCast ⟨2, ![1, N]⟩ x3 hcB) hbt))
      (broadcast ⟨2, ![M, N]⟩ (Scalar.ofBits (F := Ideal) .f32 0x00000000#32)) (ix2 p q)
    = layerAt x0 x1 x2 x4 x3 p q := by
  rw [shapeCast_self, shapeCast_self, shapeCast_self]
  simp only [maximumf, addf]
  rw [Cert.Lib.ContractPlain.matmulZero_apply D hD, Cert.Lib.ContractPlain.matmulZero_apply D hD,
    broadcastTo_apply x3 hbt (ix2 p q) (ix2 (0 : Fin 1) q) (fun a => match a with
      | ⟨0, _⟩ => rfl
      | ⟨1, _⟩ => by show q.val = if N = 1 then 0 else q.val; rw [if_neg hN])]
  rfl

/-- THE PLAIN LAYER on whole arrays: two host products, the bias vector laid as a row and repeated down the rows
    added to the first, then the second product, the maximum with a broadcast zero — read at entry (a, n) it is the
    layer with the bias vector reshaped to a one-row matrix. The two additions come in the other order. -/
theorem ref_apply (hN : N ≠ 1)
    (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hsc : (⟨1, ![N]⟩ : Shape).ShapeCasts ⟨2, ![1, N]⟩)
    (agg x : FVec Ideal ⟨2, ![M, K]⟩ .f32) (wrel wroot : FVec Ideal ⟨2, ![K, N]⟩ .f32)
    (bvec : FVec Ideal ⟨1, ![N]⟩ .f32) (a : Fin M) (n : Fin N) :
    maximumf (addf (addf (Host.dotGeneral D none agg wrel)
          (broadcastInDim ⟨2, ![M, N]⟩ ![0, 1] h2 (broadcastInDim ⟨2, ![1, N]⟩ ![1] h1 bvec)))
        (Host.dotGeneral D none x wroot))
      (broadcastInDim ⟨2, ![M, N]⟩ ![] h0 (constant ⟨0, ![]⟩ .f32 0x00000000#32)) (ix2 a n)
    = layerAt agg x wrel wroot (shapeCast ⟨2, ![1, N]⟩ bvec hsc) a n := by
  unfold layerAt
  rw [Cert.Lib.RowReshape.reshape_eq_inDim hN hsc h1 bvec]
  simp only [maximumf, addf]
  rw [Cert.Lib.ContractPlain.hostDot_apply D hD, Cert.Lib.ContractPlain.hostDot_apply D hD,
    Cert.Lib.RowInDim.repeat_apply hN h2]
  rw [add_right_comm]
  rfl

/-- The same as an equation of whole arrays. -/
theorem ref_eq (hN : N ≠ 1)
    (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hsc : (⟨1, ![N]⟩ : Shape).ShapeCasts ⟨2, ![1, N]⟩)
    (agg x : FVec Ideal ⟨2, ![M, K]⟩ .f32) (wrel wroot : FVec Ideal ⟨2, ![K, N]⟩ .f32)
    (bvec : FVec Ideal ⟨1, ![N]⟩ .f32) :
    maximumf (addf (addf (Host.dotGeneral D none agg wrel)
          (broadcastInDim ⟨2, ![M, N]⟩ ![0, 1] h2 (broadcastInDim ⟨2, ![1, N]⟩ ![1] h1 bvec)))
        (Host.dotGeneral D none x wroot))
      (broadcastInDim ⟨2, ![M, N]⟩ ![] h0 (constant ⟨0, ![]⟩ .f32 0x00000000#32))
    = layer agg x wrel wroot (shapeCast ⟨2, ![1, N]⟩ bvec hsc) := by
  funext i
  obtain ⟨a, n, rfl⟩ : ∃ (a : Fin M) (n : Fin N), i = ix2 a n := ⟨i 0, i 1, eq_ix2 i⟩
  exact ref_apply hN D hD h1 h2 h0 hsc agg x wrel wroot bvec a n

end Cert.GraphConv

end
-- ==== Proof.Region0.lean ====
/-
  Region 0: the array its row-tiled GraphConv kernel leaves, as one function of the arrays it finds.

  The grid has 4 points; point t stages rows t·8192 … t·8192+8191 of the aggregated features and of the node
  features, the whole of both weight matrices and of the one-row bias, and writes back rows t·8192 … of the output.
  The body's one store is the layer of the staged blocks, so what point t writes back is block t of the layer of the
  whole arrays (an entry of the layer reads one row of each feature matrix); the 4 blocks tile the output, so the
  array ends holding the layer of the whole arrays. The arrays as the region finds them are a parameter `V`.
-/
import proofs.«144967_j180388626835_1_alg».proof.Proof.Gen.KernelIdeal.Frame
import proofs.«144967_j180388626835_1_alg».proof.Proof.LayerSpec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.GraphConv

variable (V : (c : Dev nD) → (b : Ref sig .tc) → Buf (Elt Ideal) ((c : Thread nD τ).loc b))

theorem zeroOff : (![0, 0] : Fin 2 → Nat) = fun _ => 0 := funext fun a => by fin_cases a <;> rfl

/-- The body's store, from the staged blocks, is the layer of the blocks. -/
theorem out_eq (x0 x1 : Vec Ideal S8192x64 .f32) (x2 : Vec Ideal S64x128 .f32) (x3 : Vec Ideal S1x128 .f32)
    (x4 : Vec Ideal S64x128 .f32) : out0_5 x0 x1 x2 x3 x4 = layer x0 x1 x2 x4 x3 := by
  unfold out0_5
  rw [View.canon_unit_zero zeroOff]
  simp only [View.ld_unit_zero (S := S8192x64) zeroOff, View.ld_unit_zero (S := S64x128) zeroOff,
    View.ld_unit_zero (S := S1x128) zeroOff]
  funext j
  obtain ⟨p, q, rfl⟩ : ∃ (p : Fin 8192) (q : Fin 128), j = ix2 p q := ⟨j 0, j 1, eq_ix2 j⟩
  unfold k0_pay1
  exact body_apply (by decide) _ rfl _ _ _ _ x0 x1 x2 x4 x3 p q

/-- The printed index maps over the grid: the two feature windows and the output move down the rows with the
    point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 4 :=
  (by decide +kernel : ∀ t : Fin grid0.N, _)

/-- Every block of rows is some point's. -/
theorem idx_onto : ∀ q0 : Fin 4, ∃ t : Fin cfg0.N, win0_5.index t = ![q0.val, 0] :=
  (by decide +kernel : ∀ q0 : Fin 4, ∃ t : Fin grid0.N, win0_5.index t = ![q0.val, 0])

/-- WHAT POINT `t` WRITES BACK is block `t` of the layer of the whole arrays. -/
theorem flushed_eq (c : Dev nD) (t : Fin cfg0.N) :
    (dat0 V c).flushed 5 t = ((cfg0.win 5).blk t).view.read (Elt Ideal)
      (layer (V c main_v23) (V c main_v13) (V c main_arg6) (V c main_arg8) (V c main_call0_v0)) := by
  show (cfg0.win 5).cut (grid0.coords t) ((dat0 V c).after 5 t) = _
  rw [after0_5, out_eq]
  obtain ⟨e00, e01, e10, e11, e20, e21, e30, e31, e40, e41, e50, e51, ht⟩ := idx_facts t
  funext j
  obtain ⟨p, q, rfl⟩ : ∃ (p : Fin 8192) (q : Fin 128), j = ix2 p q := ⟨j 0, j 1, eq_ix2 j⟩
  have hp : p.val < 8192 := p.isLt
  have hrow : t.val * 8192 + p.val < 32768 := by omega
  have hout : ((cfg0.win 5).blk t).view.emb (ix2 p q) = ix2 (⟨t.val * 8192 + p.val, hrow⟩ : Fin 32768) q := by
    funext a; apply Fin.ext
    match a with
    | ⟨0, _⟩ => show win0_5.index t (0 : Fin 2) * 8192 + 1 * p.val = t.val * 8192 + p.val; omega
    | ⟨1, _⟩ => show win0_5.index t (1 : Fin 2) * 128 + 1 * q.val = q.val; omega
  show layer (iblk0 V c 0 t) (iblk0 V c 1 t) (iblk0 V c 2 t) (iblk0 V c 4 t) (iblk0 V c 3 t) (ix2 p q)
    = layer (V c main_v23) (V c main_v13) (V c main_arg6) (V c main_arg8) (V c main_call0_v0) (((cfg0.win 5).blk t).view.emb (ix2 p q))
  rw [hout, layer_ix2, layer_ix2]
  refine layerAt_congr (fun k => ?_) (fun k => ?_) (fun k => ?_) (fun k => ?_) ?_
  · show V c main_v23 (((cfg0.win 0).blk t).view.emb (ix2 p k)) = _
    refine congrArg _ (funext fun a => Fin.ext ?_)
    match a with
    | ⟨0, _⟩ => show win0_0.index t (0 : Fin 2) * 8192 + 1 * p.val = t.val * 8192 + p.val; omega
    | ⟨1, _⟩ => show win0_0.index t (1 : Fin 2) * 64 + 1 * k.val = k.val; omega
  · show V c main_v13 (((cfg0.win 1).blk t).view.emb (ix2 p k)) = _
    refine congrArg _ (funext fun a => Fin.ext ?_)
    match a with
    | ⟨0, _⟩ => show win0_1.index t (0 : Fin 2) * 8192 + 1 * p.val = t.val * 8192 + p.val; omega
    | ⟨1, _⟩ => show win0_1.index t (1 : Fin 2) * 64 + 1 * k.val = k.val; omega
  · show V c main_arg6 (((cfg0.win 2).blk t).view.emb (ix2 k q)) = _
    refine congrArg _ (funext fun a => Fin.ext ?_)
    match a with
    | ⟨0, _⟩ => show win0_2.index t (0 : Fin 2) * 64 + 1 * k.val = k.val; omega
    | ⟨1, _⟩ => show win0_2.index t (1 : Fin 2) * 128 + 1 * q.val = q.val; omega
  · show V c main_arg8 (((cfg0.win 4).blk t).view.emb (ix2 k q)) = _
    refine congrArg _ (funext fun a => Fin.ext ?_)
    match a with
    | ⟨0, _⟩ => show win0_4.index t (0 : Fin 2) * 64 + 1 * k.val = k.val; omega
    | ⟨1, _⟩ => show win0_4.index t (1 : Fin 2) * 128 + 1 * q.val = q.val; omega
  · show V c main_call0_v0 (((cfg0.win 3).blk t).view.emb (ix2 (0 : Fin 1) q)) = _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega

/-- An index of the output array is in point `t`'s block iff each coordinate is in the block's range. -/
theorem mem_blk (t : Fin cfg0.N) (i : S32768x128.Idx) :
    i ∈ ((cfg0.win 5).blk t).view.set ↔ ∀ a : Fin 2, win0_5.index t a * S8192x128.size a ≤ (i a).val
      ∧ (i a).val < win0_5.index t a * S8192x128.size a + S8192x128.size a := by
  show i ∈ ((View.whole main_v34).slice (win0_5.rect t)).set ↔ _
  rw [View.set_slice_whole, Rect.mem_set_unit]
  exact Iff.rfl

/-- The blocks tile the output: row r is in the block of point r / 8192. -/
theorem cover (i : S32768x128.Idx) :
    ∃ t : Fin cfg0.N, (cfg0.win 5).flush t = true ∧ i ∈ ((cfg0.win 5).blk t).view.set := by
  have hi0 : (i 0).val < 32768 := (i 0).isLt
  have hi1 : (i 1).val < 128 := (i 1).isLt
  obtain ⟨t, ht⟩ := idx_onto ⟨(i 0).val / 8192, by omega⟩
  have q0 : win0_5.index t (0 : Fin 2) = (i 0).val / 8192 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 8192 ≤ (i 0).val ∧ (i 0).val < win0_5.index t (0 : Fin 2) * 8192 + 8192
    omega
  | ⟨1, _⟩ =>
    show win0_5.index t (1 : Fin 2) * 128 ≤ (i 1).val ∧ (i 1).val < win0_5.index t (1 : Fin 2) * 128 + 128
    omega

/-- THE ARRAY the region leaves: the layer of the arrays it found. -/
theorem final (c : Dev nD) :
    (dat0 V c).arrAt 5 cfg0.N
      = layer (V c main_v23) (V c main_v13) (V c main_arg6) (V c main_arg8) (V c main_call0_v0) :=
  (dat0 V c).arrAt_eq_of_cover 5 _ (fun t _ => flushed_eq V c t) cover

end Cert.KernelIdeal.Region0

end
-- ==== Proof.Region1.lean ====
/-
  Region 1: the array its row-tiled GraphConv kernel leaves, as one function of the arrays it finds.

  The grid has 100 points; point t stages rows t·10000 … t·10000+9999 of the aggregated features and of the node
  features, the whole of both weight matrices and of the one-row bias, and writes back rows t·10000 … of the output.
  The body's one store is the layer of the staged blocks, so what point t writes back is block t of the layer of the
  whole arrays (an entry of the layer reads one row of each feature matrix); the 100 blocks tile the output, so the
  array ends holding the layer of the whole arrays. The arrays as the region finds them are a parameter `V`.
-/
import proofs.«144967_j180388626835_1_alg».proof.Proof.Gen.KernelIdeal.Frame
import proofs.«144967_j180388626835_1_alg».proof.Proof.LayerSpec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.GraphConv

variable (V : (c : Dev nD) → (b : Ref sig .tc) → Buf (Elt Ideal) ((c : Thread nD τ).loc b))

theorem zeroOff : (![0, 0] : Fin 2 → Nat) = fun _ => 0 := funext fun a => by fin_cases a <;> rfl

/-- The body's store, from the staged blocks, is the layer of the blocks. -/
theorem out_eq (x0 x1 : Vec Ideal S10000x64 .f32) (x2 : Vec Ideal S64x128 .f32) (x3 : Vec Ideal S1x128 .f32)
    (x4 : Vec Ideal S64x128 .f32) : out1_5 x0 x1 x2 x3 x4 = layer x0 x1 x2 x4 x3 := by
  unfold out1_5
  rw [View.canon_unit_zero zeroOff]
  simp only [View.ld_unit_zero (S := S10000x64) zeroOff, View.ld_unit_zero (S := S64x128) zeroOff,
    View.ld_unit_zero (S := S1x128) zeroOff]
  funext j
  obtain ⟨p, q, rfl⟩ : ∃ (p : Fin 10000) (q : Fin 128), j = ix2 p q := ⟨j 0, j 1, eq_ix2 j⟩
  unfold k1_pay1
  exact body_apply (by decide) _ rfl _ _ _ _ x0 x1 x2 x4 x3 p q

/-- The printed index maps over the grid: the two feature windows and the output move down the rows with the
    point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 100 :=
  (by decide +kernel : ∀ t : Fin grid1.N, _)

/-- Every block of rows is some point's. -/
theorem idx_onto : ∀ q0 : Fin 100, ∃ t : Fin cfg1.N, win1_5.index t = ![q0.val, 0] :=
  (by decide +kernel : ∀ q0 : Fin 100, ∃ t : Fin grid1.N, win1_5.index t = ![q0.val, 0])

/-- WHAT POINT `t` WRITES BACK is block `t` of the layer of the whole arrays. -/
theorem flushed_eq (c : Dev nD) (t : Fin cfg1.N) :
    (dat1 V c).flushed 5 t = ((cfg1.win 5).blk t).view.read (Elt Ideal)
      (layer (V c main_v33) (V c main_v6) (V c main_arg9) (V c main_arg11) (V c main_call1_v0)) := by
  show (cfg1.win 5).cut (grid1.coords t) ((dat1 V c).after 5 t) = _
  rw [after1_5, out_eq]
  obtain ⟨e00, e01, e10, e11, e20, e21, e30, e31, e40, e41, e50, e51, ht⟩ := idx_facts t
  funext j
  obtain ⟨p, q, rfl⟩ : ∃ (p : Fin 10000) (q : Fin 128), j = ix2 p q := ⟨j 0, j 1, eq_ix2 j⟩
  have hp : p.val < 10000 := p.isLt
  have hrow : t.val * 10000 + p.val < 1000000 := by omega
  have hout : ((cfg1.win 5).blk t).view.emb (ix2 p q) = ix2 (⟨t.val * 10000 + p.val, hrow⟩ : Fin 1000000) q := by
    funext a; apply Fin.ext
    match a with
    | ⟨0, _⟩ => show win1_5.index t (0 : Fin 2) * 10000 + 1 * p.val = t.val * 10000 + p.val; omega
    | ⟨1, _⟩ => show win1_5.index t (1 : Fin 2) * 128 + 1 * q.val = q.val; omega
  show layer (iblk1 V c 0 t) (iblk1 V c 1 t) (iblk1 V c 2 t) (iblk1 V c 4 t) (iblk1 V c 3 t) (ix2 p q)
    = layer (V c main_v33) (V c main_v6) (V c main_arg9) (V c main_arg11) (V c main_call1_v0) (((cfg1.win 5).blk t).view.emb (ix2 p q))
  rw [hout, layer_ix2, layer_ix2]
  refine layerAt_congr (fun k => ?_) (fun k => ?_) (fun k => ?_) (fun k => ?_) ?_
  · show V c main_v33 (((cfg1.win 0).blk t).view.emb (ix2 p k)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · show V c main_v6 (((cfg1.win 1).blk t).view.emb (ix2 p k)) = _
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 64 + 1 * k.val = k.val; omega
  · show V c main_arg9 (((cfg1.win 2).blk t).view.emb (ix2 k q)) = _
    refine congrArg _ (funext fun a => Fin.ext ?_)
    match a with
    | ⟨0, _⟩ => show win1_2.index t (0 : Fin 2) * 64 + 1 * k.val = k.val; omega
    | ⟨1, _⟩ => show win1_2.index t (1 : Fin 2) * 128 + 1 * q.val = q.val; omega
  · show V c main_arg11 (((cfg1.win 4).blk t).view.emb (ix2 k q)) = _
    refine congrArg _ (funext fun a => Fin.ext ?_)
    match a with
    | ⟨0, _⟩ => show win1_4.index t (0 : Fin 2) * 64 + 1 * k.val = k.val; omega
    | ⟨1, _⟩ => show win1_4.index t (1 : Fin 2) * 128 + 1 * q.val = q.val; omega
  · show V c main_call1_v0 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega

/-- An index of the output array is in point `t`'s block iff each coordinate is in the block's range. -/
theorem mem_blk (t : Fin cfg1.N) (i : S1000000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v35).slice (win1_5.rect t)).set ↔ _
  rw [View.set_slice_whole, Rect.mem_set_unit]
  exact Iff.rfl

/-- The blocks tile the output: row r is in the block of point r / 10000. -/
theorem cover (i : S1000000x128.Idx) :
    ∃ t : Fin cfg1.N, (cfg1.win 5).flush t = true ∧ i ∈ ((cfg1.win 5).blk t).view.set := by
  have hi0 : (i 0).val < 1000000 := (i 0).isLt
  have hi1 : (i 1).val < 128 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 128 ≤ (i 1).val ∧ (i 1).val < win1_5.index t (1 : Fin 2) * 128 + 128
    omega

/-- THE ARRAY the region leaves: the layer of the arrays it found. -/
theorem final (c : Dev nD) :
    (dat1 V c).arrAt 5 cfg1.N
      = layer (V c main_v33) (V c main_v6) (V c main_arg9) (V c main_arg11) (V c main_call1_v0) :=
  (dat1 V c).arrAt_eq_of_cover 5 _ (fun t _ => flushed_eq V c t) cover

end Cert.KernelIdeal.Region1

end
-- ==== Proof.Region2.lean ====
/-
  Region 2: the array its row-tiled GraphConv kernel leaves, as one function of the arrays it finds.

  The grid has 4 points; point t stages rows t·8192 … t·8192+8191 of the aggregated features and of the node
  features, the whole of both weight matrices and of the one-row bias, and writes back rows t·8192 … of the output.
  The body's one store is the layer of the staged blocks, so what point t writes back is block t of the layer of the
  whole arrays (an entry of the layer reads one row of each feature matrix); the 4 blocks tile the output, so the
  array ends holding the layer of the whole arrays. The arrays as the region finds them are a parameter `V`.
-/
import proofs.«144967_j180388626835_1_alg».proof.Proof.Gen.KernelIdeal.Frame
import proofs.«144967_j180388626835_1_alg».proof.Proof.LayerSpec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx Cert.GraphConv

variable (V : (c : Dev nD) → (b : Ref sig .tc) → Buf (Elt Ideal) ((c : Thread nD τ).loc b))

theorem zeroOff : (![0, 0] : Fin 2 → Nat) = fun _ => 0 := funext fun a => by fin_cases a <;> rfl

/-- The body's store, from the staged blocks, is the layer of the blocks. -/
theorem out_eq (x0 x1 : Vec Ideal S8192x128 .f32) (x2 : Vec Ideal S128x128 .f32) (x3 : Vec Ideal S1x128 .f32)
    (x4 : Vec Ideal S128x128 .f32) : out2_5 x0 x1 x2 x3 x4 = layer x0 x1 x2 x4 x3 := by
  unfold out2_5
  rw [View.canon_unit_zero zeroOff]
  simp only [View.ld_unit_zero (S := S8192x128) zeroOff, View.ld_unit_zero (S := S128x128) zeroOff,
    View.ld_unit_zero (S := S1x128) zeroOff]
  funext j
  obtain ⟨p, q, rfl⟩ : ∃ (p : Fin 8192) (q : Fin 128), j = ix2 p q := ⟨j 0, j 1, eq_ix2 j⟩
  unfold k2_pay1
  exact body_apply (by decide) _ rfl _ _ _ _ x0 x1 x2 x4 x3 p q

/-- The printed index maps over the grid: the two feature windows and the output move down the rows with the
    point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 4 :=
  (by decide +kernel : ∀ t : Fin grid2.N, _)

/-- Every block of rows is some point's. -/
theorem idx_onto : ∀ q0 : Fin 4, ∃ t : Fin cfg2.N, win2_5.index t = ![q0.val, 0] :=
  (by decide +kernel : ∀ q0 : Fin 4, ∃ t : Fin grid2.N, win2_5.index t = ![q0.val, 0])

/-- WHAT POINT `t` WRITES BACK is block `t` of the layer of the whole arrays. -/
theorem flushed_eq (c : Dev nD) (t : Fin cfg2.N) :
    (dat2 V c).flushed 5 t = ((cfg2.win 5).blk t).view.read (Elt Ideal)
      (layer (V c main_v45) (V c main_v34) (V c main_arg12) (V c main_arg14) (V c main_call2_v0)) := by
  show (cfg2.win 5).cut (grid2.coords t) ((dat2 V c).after 5 t) = _
  rw [after2_5, out_eq]
  obtain ⟨e00, e01, e10, e11, e20, e21, e30, e31, e40, e41, e50, e51, ht⟩ := idx_facts t
  funext j
  obtain ⟨p, q, rfl⟩ : ∃ (p : Fin 8192) (q : Fin 128), j = ix2 p q := ⟨j 0, j 1, eq_ix2 j⟩
  have hp : p.val < 8192 := p.isLt
  have hrow : t.val * 8192 + p.val < 32768 := by omega
  have hout : ((cfg2.win 5).blk t).view.emb (ix2 p q) = ix2 (⟨t.val * 8192 + p.val, hrow⟩ : Fin 32768) q := by
    funext a; apply Fin.ext
    match a with
    | ⟨0, _⟩ => show win2_5.index t (0 : Fin 2) * 8192 + 1 * p.val = t.val * 8192 + p.val; omega
    | ⟨1, _⟩ => show win2_5.index t (1 : Fin 2) * 128 + 1 * q.val = q.val; omega
  show layer (iblk2 V c 0 t) (iblk2 V c 1 t) (iblk2 V c 2 t) (iblk2 V c 4 t) (iblk2 V c 3 t) (ix2 p q)
    = layer (V c main_v45) (V c main_v34) (V c main_arg12) (V c main_arg14) (V c main_call2_v0) (((cfg2.win 5).blk t).view.emb (ix2 p q))
  rw [hout, layer_ix2, layer_ix2]
  refine layerAt_congr (fun k => ?_) (fun k => ?_) (fun k => ?_) (fun k => ?_) ?_
  · show V c main_v45 (((cfg2.win 0).blk t).view.emb (ix2 p k)) = _
    refine congrArg _ (funext fun a => Fin.ext ?_)
    match a with
    | ⟨0, _⟩ => show win2_0.index t (0 : Fin 2) * 8192 + 1 * p.val = t.val * 8192 + p.val; omega
    | ⟨1, _⟩ => show win2_0.index t (1 : Fin 2) * 128 + 1 * k.val = k.val; omega
  · show V c main_v34 (((cfg2.win 1).blk t).view.emb (ix2 p k)) = _
    refine congrArg _ (funext fun a => Fin.ext ?_)
    match a with
    | ⟨0, _⟩ => show win2_1.index t (0 : Fin 2) * 8192 + 1 * p.val = t.val * 8192 + p.val; omega
    | ⟨1, _⟩ => show win2_1.index t (1 : Fin 2) * 128 + 1 * k.val = k.val; omega
  · show V c main_arg12 (((cfg2.win 2).blk t).view.emb (ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · show V c main_arg14 (((cfg2.win 4).blk t).view.emb (ix2 k q)) = _
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * q.val = q.val; omega
  · show V c main_call2_v0 (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega

/-- An index of the output array is in point `t`'s block iff each coordinate is in the block's range. -/
theorem mem_blk (t : Fin cfg2.N) (i : S32768x128.Idx) :
    i ∈ ((cfg2.win 5).blk t).view.set ↔ ∀ a : Fin 2, win2_5.index t a * S8192x128.size a ≤ (i a).val
      ∧ (i a).val < win2_5.index t a * S8192x128.size a + S8192x128.size a := by
  show i ∈ ((View.whole main_v56).slice (win2_5.rect t)).set ↔ _
  rw [View.set_slice_whole, Rect.mem_set_unit]
  exact Iff.rfl

/-- The blocks tile the output: row r is in the block of point r / 8192. -/
theorem cover (i : S32768x128.Idx) :
    ∃ t : Fin cfg2.N, (cfg2.win 5).flush t = true ∧ i ∈ ((cfg2.win 5).blk t).view.set := by
  have hi0 : (i 0).val < 32768 := (i 0).isLt
  have hi1 : (i 1).val < 128 := (i 1).isLt
  obtain ⟨t, ht⟩ := idx_onto ⟨(i 0).val / 8192, by omega⟩
  have q0 : win2_5.index t (0 : Fin 2) = (i 0).val / 8192 := congrFun ht 0
  have q1 : win2_5.index t (1 : Fin 2) = 0 := congrFun ht 1
  refine ⟨t, flush2_5 t, ?_⟩
  rw [mem_blk]
  intro a
  match a with
  | ⟨0, _⟩ =>
    show win2_5.index t (0 : Fin 2) * 8192 ≤ (i 0).val ∧ (i 0).val < win2_5.index t (0 : Fin 2) * 8192 + 8192
    omega
  | ⟨1, _⟩ =>
    show win2_5.index t (1 : Fin 2) * 128 ≤ (i 1).val ∧ (i 1).val < win2_5.index t (1 : Fin 2) * 128 + 128
    omega

/-- THE ARRAY the region leaves: the layer of the arrays it found. -/
theorem final (c : Dev nD) :
    (dat2 V c).arrAt 5 cfg2.N
      = layer (V c main_v45) (V c main_v34) (V c main_arg12) (V c main_arg14) (V c main_call2_v0) :=
  (dat2 V c).arrAt_eq_of_cover 5 _ (fun t _ => flushed_eq V c t) cover

end Cert.KernelIdeal.Region2

end
-- ==== Proof.Bridge.lean ====
/-
  The kernel program's two results are the plain program's.

  Kernel side. The contents of the TensorCore's buffers at the boundaries of @main are a fold from the launch memory
  (host stretches apply their operations; a region replaces its output array). Each of the three regions that feed
  the results leaves the GraphConv layer of the arrays it finds (the team features after layer 0, the player
  features after layer 0, the team features after layer 1); reading the fold down to the launch memory, the team
  features after layer 1 are the layer of: the segment sum over the edges of the gathered player features after
  layer 0, the team features after layer 0, the weights and the reshaped bias — each again such a term.
  Plain side. The generated run states each result as the composed term of the arguments; its three layers are the
  same layer function (the two additions in the other order), and every gather, index wrap, segment sum and the
  final softmax chain is the same operation on the same operands. So the two terms are one.
-/
import proofs.«144967_j180388626835_1_alg».proof.Proof.Gen.KernelIdeal.Frame
import proofs.«144967_j180388626835_1_alg».proof.Proof.Gen.ReferenceIdeal.Run
import proofs.«144967_j180388626835_1_alg».proof.Proof.Region0
import proofs.«144967_j180388626835_1_alg».proof.Proof.Region1
import proofs.«144967_j180388626835_1_alg».proof.Proof.Region2

set_option maxRecDepth 16384

noncomputable section

namespace Cert.Bridge

open Cert.KernelIdeal Cert.KernelIdeal.Gen Idealize.ShloMosaic Idealize.ShloMosaic.TcCoe Idealize.SL.Sem
open Idealize.ShloMosaic.StableHlo Cert.GraphConv

variable (m : (ℓ : Loc nD τ sig) → Buf (Elt Ideal) ℓ) (ρ : Dev nD → PrngReg)

/-! ## The three regions' outputs at their exits -/

/-- The team features after layer 0: the layer of what region 0 finds. -/
theorem team0 (c : Dev nD) : W3 m ρ c (Proc.devRef .tc main_v34)
    = layer (W2 m ρ c (Proc.devRef .tc main_v23)) (W2 m ρ c (Proc.devRef .tc main_v13)) (W2 m ρ c (Proc.devRef .tc main_arg6))
        (W2 m ρ c (Proc.devRef .tc main_arg8)) (W2 m ρ c (Proc.devRef .tc main_call0_v0)) :=
  (W3_arr m ρ c 5).trans (Cert.KernelIdeal.Region0.final (V2 m ρ) c)

/-- The player features after layer 0: the layer of what region 1 finds. -/
theorem player0 (c : Dev nD) : W5 m ρ c (Proc.devRef .tc main_v35)
    = layer (W4 m ρ c (Proc.devRef .tc main_v33)) (W4 m ρ c (Proc.devRef .tc main_v6)) (W4 m ρ c (Proc.devRef .tc main_arg9))
        (W4 m ρ c (Proc.devRef .tc main_arg11)) (W4 m ρ c (Proc.devRef .tc main_call1_v0)) :=
  (W5_arr m ρ c 5).trans (Cert.KernelIdeal.Region1.final (V4 m ρ) c)

/-- The team features after layer 1: the layer of what region 2 finds. -/
theorem team1 (c : Dev nD) : W8 m ρ c (Proc.devRef .tc main_v56)
    = layer (W7 m ρ c (Proc.devRef .tc main_v45)) (W7 m ρ c (Proc.devRef .tc main_v34)) (W7 m ρ c (Proc.devRef .tc main_arg12))
        (W7 m ρ c (Proc.devRef .tc main_arg14)) (W7 m ρ c (Proc.devRef .tc main_call2_v0)) :=
  (W8_arr m ρ c 5).trans (Cert.KernelIdeal.Region2.final (V7 m ρ) c)

/-! ## The plain program's three layers are the layer function -/

/-- The plain program's layer 1 on the team side. -/
theorem refTeam1 (agg x : FVec Ideal Cert.ReferenceIdeal.S32768x128 .f32) (wrel wroot : FVec Ideal Cert.ReferenceIdeal.S128x128 .f32)
    (bvec : FVec Ideal Cert.ReferenceIdeal.S128 .f32) :
    maximumf (addf (addf (Host.dotGeneral Cert.ReferenceIdeal.dot_S32768x128_S128x128_S32768x128_1_0_0_1_n_n none agg wrel)
          (broadcastInDim Cert.ReferenceIdeal.S32768x128 ![0, 1] Cert.ReferenceIdeal.Facts₀.bcast_S1x128_S32768x128_0_1
            (broadcastInDim Cert.ReferenceIdeal.S1x128 ![1] Cert.ReferenceIdeal.Facts₀.bcast_S128_S1x128_1 bvec)))
        (Host.dotGeneral Cert.ReferenceIdeal.dot_S32768x128_S128x128_S32768x128_1_0_0_1_n_n none x wroot))
      (broadcastInDim Cert.ReferenceIdeal.S32768x128 ![] Cert.ReferenceIdeal.Facts₀.bcast_S_S32768x128 (constant Cert.ReferenceIdeal.S_ .f32 0x00000000#32))
    = layer agg x wrel wroot (shapeCast S1x128 bvec Cert.KernelIdeal.Facts₀.shapeCasts_S128_S1x128) :=
  ref_eq (by decide) _ rfl _ _ _ _ agg x wrel wroot bvec

/-- The plain program's layer 0 on the player side. -/
theorem refPlayer0 (agg x : FVec Ideal Cert.ReferenceIdeal.S1000000x64 .f32) (wrel wroot : FVec Ideal Cert.ReferenceIdeal.S64x128 .f32)
    (bvec : FVec Ideal Cert.ReferenceIdeal.S128 .f32) :
    maximumf (addf (addf (Host.dotGeneral Cert.ReferenceIdeal.dot_S1000000x64_S64x128_S1000000x128_1_0_0_1_n_n none agg wrel)
          (broadcastInDim Cert.ReferenceIdeal.S1000000x128 ![0, 1] Cert.ReferenceIdeal.Facts₀.bcast_S1x128_S1000000x128_0_1
            (broadcastInDim Cert.ReferenceIdeal.S1x128 ![1] Cert.ReferenceIdeal.Facts₀.bcast_S128_S1x128_1 bvec)))
        (Host.dotGeneral Cert.ReferenceIdeal.dot_S1000000x64_S64x128_S1000000x128_1_0_0_1_n_n none x wroot))
      (broadcastInDim Cert.ReferenceIdeal.S1000000x128 ![] Cert.ReferenceIdeal.Facts₀.bcast_S_S1000000x128 (constant Cert.ReferenceIdeal.S_ .f32 0x00000000#32))
    = layer agg x wrel wroot (shapeCast S1x128 bvec Cert.KernelIdeal.Facts₀.shapeCasts_S128_S1x128) :=
  ref_eq (by decide) _ rfl _ _ _ _ agg x wrel wroot bvec

/-- The plain program's layer 0 on the team side. -/
theorem refTeam0 (agg x : FVec Ideal Cert.ReferenceIdeal.S32768x64 .f32) (wrel wroot : FVec Ideal Cert.ReferenceIdeal.S64x128 .f32)
    (bvec : FVec Ideal Cert.ReferenceIdeal.S128 .f32) :
    maximumf (addf (addf (Host.dotGeneral Cert.ReferenceIdeal.dot_S32768x64_S64x128_S32768x128_1_0_0_1_n_n none agg wrel)
          (broadcastInDim Cert.ReferenceIdeal.S32768x128 ![0, 1] Cert.ReferenceIdeal.Facts₀.bcast_S1x128_S32768x128_0_1
            (broadcastInDim Cert.ReferenceIdeal.S1x128 ![1] Cert.ReferenceIdeal.Facts₀.bcast_S128_S1x128_1 bvec)))
        (Host.dotGeneral Cert.ReferenceIdeal.dot_S32768x64_S64x128_S32768x128_1_0_0_1_n_n none x wroot))
      (broadcastInDim Cert.ReferenceIdeal.S32768x128 ![] Cert.ReferenceIdeal.Facts₀.bcast_S_S32768x128 (constant Cert.ReferenceIdeal.S_ .f32 0x00000000#32))
    = layer agg x wrel wroot (shapeCast S1x128 bvec Cert.KernelIdeal.Facts₀.shapeCasts_S128_S1x128) :=
  ref_eq (by decide) _ rfl _ _ _ _ agg x wrel wroot bvec

/-! ## Down the boundaries -/

/-- Nothing after region 2 writes the team features: the last stretch reads them, region 3 and its bias reshape
    touch other buffers. -/
theorem team_kept (c : Dev nD) : W11 m ρ c (Proc.devRef .tc main_v56) = W8 m ρ c (Proc.devRef .tc main_v56) := by
  dsimp only [W11, hostOps4]
  after_results_simp
  rw [W10_of_ne m ρ c main_v56 (by decide)]
  dsimp only [W9, hostOps3]
  after_results_simp

/-- The classifier's weights at region 3's exit are the launch contents. -/
theorem wlin_kept (c : Dev nD) : W10 m ρ c (Proc.devRef .tc main_arg18) = m ((c : Thread nD τ).loc main_arg18) := by
  rw [← W11_main_arg18 m ρ c]
  dsimp only [W11, hostOps4]
  after_results_simp

/-- The classifier's bias at region 3's exit is the launch contents. -/
theorem blin_kept (c : Dev nD) : W10 m ρ c (Proc.devRef .tc main_arg19) = m ((c : Thread nD τ).loc main_arg19) := by
  rw [← W11_main_arg19 m ρ c]
  dsimp only [W11, hostOps4]
  after_results_simp

variable (m' : (ℓ : Loc Cert.ReferenceIdeal.nD Cert.ReferenceIdeal.τ Cert.ReferenceIdeal.sig) → Buf (Elt Ideal) ℓ)

set_option maxHeartbeats 8000000 in
/-- THE TEAM FEATURES AFTER LAYER 1 are the plain program's: region 2's layer of the segment sum of the gathered
    player features after layer 0 (region 1's layer, over the segment sum of the gathered team embeddings) and of the
    team features after layer 0 (region 0's layer, over the segment sum of the gathered player embeddings), against
    the generated run's term with its three layers read as the layer function. -/
theorem team_eq (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)) :
    Cert.ReferenceIdeal.Value.res_main_v74 m' c = W8 m ρ c (Proc.devRef .tc main_v56) := by
  obtain ⟨h0, h1, h2, h3, h4, h5, h6, h7, h8, h9, h10, h11, h12, h13, h14, h15, h16, h17, h18, h19⟩ := h
  rw [team1 m ρ c]
  dsimp only [W7, W6, hostOps2_1, hostOps2]
  after_results_simp
  rw [player0 m ρ c, W5_of_ne m ρ c main_v34 (by decide), W5_of_ne m ρ c main_arg2 (by decide), W5_of_ne m ρ c main_arg3 (by decide), W5_of_ne m ρ c main_arg12 (by decide), W5_of_ne m ρ c main_arg13 (by decide), W5_of_ne m ρ c main_arg14 (by decide)]
  dsimp only [W4, hostOps1]
  after_results_simp
  rw [team0 m ρ c, W3_of_ne m ρ c main_v33 (by decide),
    W3_of_ne m ρ c main_v6 (by decide),
    W3_of_ne m ρ c main_arg9 (by decide),
    W3_of_ne m ρ c main_arg10 (by decide),
    W3_of_ne m ρ c main_arg11 (by decide),
    W3_of_ne m ρ c main_arg2 (by decide),
    W3_of_ne m ρ c main_arg3 (by decide),
    W3_of_ne m ρ c main_arg12 (by decide),
    W3_of_ne m ρ c main_arg13 (by decide),
    W3_of_ne m ρ c main_arg14 (by decide)]
  dsimp only [W2, W1, W0, hostOps0_1, hostOps0]
  after_results_simp
  unfold Cert.ReferenceIdeal.Value.res_main_v74
  rw [h0, h1, h2, h3, h4, h5, h6, h7, h8, h9, h10, h11, h12, h13, h14]
  rw [refTeam1, refPlayer0, refTeam0]
  rfl

set_option maxHeartbeats 8000000 in
/-- THE CLASS PROBABILITIES are the plain program's: both apply the same pairing reshape, classifier product, bias
    and softmax chain to the team features after layer 1 (equal by `team_eq`) and the same two arguments. -/
theorem probs_eq (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)) :
    Cert.ReferenceIdeal.Value.res_main_v97 m' c = W11 m ρ c (Proc.devRef .tc main_v73) := by
  have ht := team_eq m ρ m' c h
  obtain ⟨h0, h1, h2, h3, h4, h5, h6, h7, h8, h9, h10, h11, h12, h13, h14, h15, h16, h17, h18, h19⟩ := h
  dsimp only [W11, hostOps4]
  after_results_simp
  rw [W10_of_ne m ρ c main_v56 (by decide)]
  dsimp only [W9, hostOps3]
  after_results_simp
  rw [← ht, wlin_kept m ρ c, blin_kept m ρ c]
  unfold Cert.ReferenceIdeal.Value.res_main_v97
  rw [h18, h19]
  rfl

end Cert.Bridge

end
-- ==== Proof.lean ====
/-
  A two-layer heterogeneous GraphConv network over players and teams, with its four dense layer applications as
  row-tiled kernels, against the same network in plain jnp.

  Both programs gather the player and team embeddings, and per layer form the segment sums of gathered neighbour
  features over the edges (host gathers and scatter-adds, printed as the same operations on the same operands in
  both). The dense step of a layer is  relu(agg · W_rel + b + x · W_root): the kernel program computes it in a
  pallas_call tiled over the rows (bf16 operands on the matrix unit — no change of value on the extended reals —,
  (agg·W_rel + x·W_root) + b, maximum with 0), the plain program on the host ((agg·W_rel + b) + x·W_root, maximum
  with 0). Entry by entry these are one function: a block of rows of the layer reads only those rows, the blocks
  tile the array, and the two sums differ by the order of two additions, which commute and associate on the
  extended reals (no finiteness of the inputs is used). The second layer's team features and the softmax over their
  pairwise classifier are then the same terms of the arguments in both programs.

  The three frames: the kernel programs' are the generated frame certificates; the plain program's is its generated
  run with the results dropped. The idealization changed nothing the ledger records, so `preserves` is `True`.
-/
import proofs.«144967_j180388626835_1_alg».proof.Defs
import proofs.«144967_j180388626835_1_alg».proof.Proof.Gen.Kernel
import proofs.«144967_j180388626835_1_alg».proof.Proof.Gen.Kernel.Skeleton
import proofs.«144967_j180388626835_1_alg».proof.Proof.Gen.Kernel.Launch
import proofs.«144967_j180388626835_1_alg».proof.Proof.Gen.Kernel.Points
import proofs.«144967_j180388626835_1_alg».proof.Proof.Gen.Kernel.Frame
import proofs.«144967_j180388626835_1_alg».proof.Proof.Gen.KernelIdeal
import proofs.«144967_j180388626835_1_alg».proof.Proof.Gen.KernelIdeal.Skeleton
import proofs.«144967_j180388626835_1_alg».proof.Proof.Gen.KernelIdeal.Launch
import proofs.«144967_j180388626835_1_alg».proof.Proof.Gen.KernelIdeal.Points
import proofs.«144967_j180388626835_1_alg».proof.Proof.Gen.KernelIdeal.Frame
import proofs.«144967_j180388626835_1_alg».proof.Proof.Gen.ReferenceIdeal
import proofs.«144967_j180388626835_1_alg».proof.Proof.Gen.ReferenceIdeal.Run
import proofs.«144967_j180388626835_1_alg».proof.Proof.Gen.Pre_finite_inputs
import proofs.«144967_j180388626835_1_alg».proof.Proof.KernelRun
import proofs.«144967_j180388626835_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The plain program's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the twenty arguments both programs end with the same class probabilities and the
    same team features: the kernel program's are what its last boundary holds at their buffers, and the plain
    program's composed terms are those (`Cert.Bridge.probs_eq`, `team_eq`). -/
theorem algebraic : Cert.algebraic_KernelIdeal_ReferenceIdeal := by
  intro m ρ m' ρ' _ hagree
  refine ⟨fun c => Cert.KernelIdeal.Gen.W11 m ρ c (Proc.devRef .tc Cert.KernelIdeal.main_v73),
    fun c => Cert.KernelIdeal.Gen.W11 m ρ c (Proc.devRef .tc Cert.KernelIdeal.main_v56),
    Cert.KernelIdeal.Results.run (F := Ideal) m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · exact Cert.Bridge.probs_eq m ρ m' c (hagree c)
  · exact (Cert.Bridge.team_eq m ρ m' c (hagree c)).trans (Cert.Bridge.team_kept m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
